-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x64 : Shape := ⟨2, ![1024, 64]⟩
abbrev S64 : Shape := ⟨1, ![64]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S1024x64 .f32) (main_arg8 : FVec F S64 .f32) (main_v33 : IVec S_ 1) : IVec S_ 1 :=
  let main_v34 : FVec F S1024x64 .f32 := Host.absf main_arg7
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S1024x64 .f32) (main_arg6 : FVec F S64 .f32) (main_arg7 : FVec F S1024x64 .f32) (main_arg8 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S4x2048x1024 .f32) (main_arg2 : FVec F S4x2048x1024 .f32) (main_arg3 : FVec F S1024x64 .f32) (main_arg4 : FVec F S64 .f32) (main_arg5 : FVec F S1024x64 .f32) (main_arg6 : FVec F S64 .f32) (main_arg7 : FVec F S1024x64 .f32) (main_arg8 : FVec F S64 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x64 : Shape := ⟨2, ![1024, 64]⟩
abbrev S64 : Shape := ⟨1, ![64]⟩
abbrev S1x64 : Shape := ⟨2, ![1, 64]⟩
abbrev S4x2048x64 : Shape := ⟨3, ![4, 2048, 64]⟩
abbrev S1x256x1024 : Shape := ⟨3, ![1, 256, 1024]⟩
abbrev S1x2048x1024 : Shape := ⟨3, ![1, 2048, 1024]⟩
abbrev S1x256x64 : Shape := ⟨3, ![1, 256, 64]⟩
abbrev S2048x64 : Shape := ⟨2, ![2048, 64]⟩
abbrev S2048x1024 : Shape := ⟨2, ![2048, 1024]⟩
abbrev S256x1024 : Shape := ⟨2, ![256, 1024]⟩
abbrev S256x64 : Shape := ⟨2, ![256, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S1024x64, .f32⟩
  | .hbm, ⟨8, _⟩ => ⟨S64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S4x2048x64, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1024x64, .f32⟩
  | .local _ .vmem, ⟨5, _⟩ => ⟨S1x64, .f32⟩
  | .local _ .vmem, ⟨6, _⟩ => ⟨S1024x64, .f32⟩
  | .local _ .vmem, ⟨7, _⟩ => ⟨S1x64, .f32⟩
  | .local _ .vmem, ⟨8, _⟩ => ⟨S1024x64, .f32⟩
  | .local _ .vmem, ⟨9, _⟩ => ⟨S1x64, .f32⟩
  | .local _ .vmem, ⟨10, _⟩ => ⟨S1x256x64, .f32⟩
  | .local _ .vmem, ⟨11, _⟩ => ⟨S1x256x64, .f32⟩
  | .local _ .vmem, ⟨12, _⟩ => ⟨S2048x64, .bf16⟩
  | .local _ .vmem, ⟨13, _⟩ => ⟨S2048x64, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S64_S1x64 : S64.ShapeCasts S1x64
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x64_S256x64 : S1x64.Broadcasts S256x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S2048x1024_S1024x64_S2048x64_1_0_0_1_n_n_wf : DotDims.WF S2048x1024 S1024x64 S2048x64 [1] [0] [0] [1] [] []
  dot_S256x1024_S1024x64_S256x64_1_0_0_1_n_n_wf : DotDims.WF S256x1024 S1024x64 S256x64 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S4x2048x1024.size a
  hwx0_1 : ∀ i : grid0.Coords, EltTy.bits .f32 = 32 ∨ (Rect.block (s := S4x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S4x2048x1024.size a
  hwx0_2 : ∀ i : grid0.Coords, EltTy.bits .f32 = 32 ∨ (Rect.block (s := S4x2048x1024) S1x2048x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S1024x64.size a
  hwx0_5 : ∀ i : grid0.Coords, EltTy.bits .f32 = 32 ∨ (Rect.block (s := S1024x64) S1024x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S1024x64.size a
  hwx0_7 : ∀ i : grid0.Coords, EltTy.bits .f32 = 32 ∨ (Rect.block (s := S1024x64) S1024x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x64.size a ≤ S4x2048x64.size a
  hwx0_9 : ∀ i : grid0.Coords, EltTy.bits .f32 = 32 ∨ (Rect.block (s := S4x2048x64) S1x256x64.size (cc0_transform_9 i) (hinb0_9 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x256x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x64 : Shape := ⟨2, ![1024, 64]⟩
abbrev S64 : Shape := ⟨1, ![64]⟩
abbrev S4x2048x64 : Shape := ⟨3, ![4, 2048, 64]⟩
abbrev S1x1x64 : Shape := ⟨3, ![1, 1, 64]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S1024x64, .f32⟩
  | .hbm, ⟨8, _⟩ => ⟨S64, .f32⟩
  | .hbm, ⟨9, _⟩ => ⟨S4x2048x64, .f32⟩
  | .hbm, ⟨10, _⟩ => ⟨S1x1x64, .f32⟩
  | .hbm, ⟨11, _⟩ => ⟨S4x2048x64, .f32⟩
  | .hbm, ⟨12, _⟩ => ⟨S4x2048x64, .f32⟩
  | .hbm, ⟨13, _⟩ => ⟨S4x2048x64, .f32⟩
  | .hbm, ⟨14, _⟩ => ⟨S1x1x64, .f32⟩
  | .hbm, ⟨15, _⟩ => ⟨S4x2048x64, .f32⟩
  | .hbm, ⟨16, _⟩ => ⟨S4x2048x64, .f32⟩
  | .hbm, ⟨17, _⟩ => ⟨S4x2048x64, .f32⟩
  | .hbm, ⟨18, _⟩ => ⟨S1x1x64, .f32⟩
  | .hbm, ⟨19, _⟩ => ⟨S4x2048x64, .f32⟩
  | .hbm, ⟨20, _⟩ => ⟨S4x2048x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x2048x64_0_1_2 : S1x1x64.BroadcastsInDim S4x2048x64 (![0, 1, 2] : Fin 3 → Fin S4x2048x64.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x64_S4x2048x64_2_0_01_1_n_n_wf : DotDims.WF S4x2048x1024 S1024x64 S4x2048x64 [2] [0] [0, 1] [1] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x1024_S1024x64_S4x2048x64_2_0_01_1_n_n : DotDims S4x2048x1024 S1024x64 S4x2048x64 where
  lhsContracting := [2]
  rhsContracting := [0]
  lhsNonContracting := [0, 1]
  rhsNonContracting := [1]
  lhsBatch := []
  rhsBatch := []
  wf := dot_S4x2048x1024_S1024x64_S4x2048x64_2_0_01_1_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.Spec.lean ====
/-
  One attention head, row by row, over the extended reals.

  A row `X` of 1024 entries is projected to 64 entries by a weight matrix and a bias: `proj X W b e = (∑ d, X d · W d e) + b e`.
  A projected query row `q` meets the 2048 projected key rows `kp s` in the scores `score c q kp s = (∑ e, q e · kp s e) · c`
  (the scale `c` on the right). The scores of one query row are turned into weights by the softmax taken with the row's
  maximum subtracted: `soft ninf sc s = exp (sc s − max) / ∑ s', exp (sc s' − max)`, the maximum a fold of `max` from the
  value `ninf` it starts from. The output row is the weighted sum of the projected value rows,
  `attnRow … v = ∑ s, soft … s · vp s v`.

  Two facts about the constants: the fold of `max` from `ninf` is at least `ninf`, so taking the larger of `ninf` and
  the fold changes nothing; and one over the square root of sixty-four is one eighth.
-/
import Idealize.ShloMosaic.Lib.ValueIdx
import Idealize.ShloMosaic.PureOps.Ideal
import Idealize.ShloMosaic.PureOps.Ideal.Laws

open scoped BigOperators

noncomputable section

namespace Cert.Attn

open Idealize.ShloMosaic

/-- A row of 1024 entries projected to 64: the row times the weight matrix, plus the bias. -/
def proj (X : Fin 1024 → EReal) (W : Fin 1024 → Fin 64 → EReal) (b : Fin 64 → EReal) (e : Fin 64) : EReal :=
  (∑ d : Fin 1024, X d * W d e) + b e

/-- The scaled inner product of a projected query row with projected key row `s`. -/
def score (c : EReal) (q : Fin 64 → EReal) (kp : Fin 2048 → Fin 64 → EReal) (s : Fin 2048) : EReal :=
  (∑ e : Fin 64, q e * kp s e) * c

/-- The largest of a row of 2048 scores, folded from `ninf`. -/
def rowMax (ninf : EReal) (sc : Fin 2048 → EReal) : EReal :=
  (Finset.univ : Finset (Fin 2048)).fold max ninf sc

/-- The softmax weight of position `s`: the exponential of the score less the row's maximum, over the sum of those
    exponentials along the row. -/
def soft (ninf : EReal) (sc : Fin 2048 → EReal) (s : Fin 2048) : EReal :=
  Ideal.div (Ideal.exp (sc s - rowMax ninf sc)) (∑ s' : Fin 2048, Ideal.exp (sc s' - rowMax ninf sc))

/-- One output row: the softmax weights of the query row's scores against the projected value rows. -/
def attnRow (c ninf : EReal) (q : Fin 64 → EReal) (kp vp : Fin 2048 → Fin 64 → EReal) (v : Fin 64) : EReal :=
  ∑ s : Fin 2048, soft ninf (score c q kp) s * vp s v

/-- The fold of `max` from `ninf` is at least `ninf`: the larger of the two is the fold. -/
theorem max_rowMax (ninf : EReal) (sc : Fin 2048 → EReal) : max ninf (rowMax ninf sc) = rowMax ninf sc :=
  max_eq_right ((Finset.le_fold_max ninf).mpr (Or.inl le_rfl))

/-- `1 / √64 = 1/8`: the reference's scale, a quotient by a square root, is the kernel's literal one eighth. -/
theorem scale_eq :
    Ideal.div (Ideal.ofBits .f32 0x3F800000#32) (Ideal.sqrt (Ideal.ofBits .f32 0x42800000#32))
      = Ideal.ofBits .f32 0x3E000000#32 := by
  have h1 : Ideal.ofBits .f32 0x3F800000#32 = ((1 : ℝ) : EReal) := by
    simp [Ideal.ofBits, Ideal.ieee, -EReal.coe_mul]; norm_num
  have h64 : Ideal.ofBits .f32 0x42800000#32 = ((64 : ℝ) : EReal) := by
    simp [Ideal.ofBits, Ideal.ieee, -EReal.coe_mul]; norm_num
  have h8 : Ideal.ofBits .f32 0x3E000000#32 = ((1 / 8 : ℝ) : EReal) := by
    simp [Ideal.ofBits, Ideal.ieee, -EReal.coe_mul]; norm_num
  have hs : Real.sqrt 64 = 8 := by
    rw [show (64 : ℝ) = 8 ^ 2 by norm_num]; exact Real.sqrt_sq (by norm_num)
  rw [h1, h64, h8, Ideal.sqrt_coe, if_neg (by norm_num), hs, Ideal.div_coe (by norm_num)]
  rw [← EReal.coe_mul]; norm_num

end Cert.Attn

end
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.LibRowMax.lean ====
/-
  A row's maximum read at an index given by coordinates, over the extended reals, at any extents: the lane maximum of a
  matrix `[a, b]` along its second axis, and the maximum of an array `[a, b, c]` along its last axis taken by a
  one-operand reduction from an initial value, are each the fold of `max` over the reduced axis's coordinates of the
  row's entries — the inserted index is `(r, k)`, respectively `(p, r, k)`.
-/
import Idealize.ShloMosaic.Lib.ValueIdx
import Idealize.ShloMosaic.PureOps.Ideal.Laws

open scoped BigOperators

namespace Cert.Lib.RowMax

open Idealize.ShloMosaic Idealize.ShloMosaic.ValueIdx

/-- Over the extended reals, the lane maximum of an `[a, b]` array along its second axis is, at row `r`, the fold of
    `max` from the accumulator's value over that row's `b` entries. -/
theorem multiReduction_maximumf_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (r : Fin a) :
    multiReduction .maximumf [(1 : Fin 2)] ⟨1, ![a]⟩ src acc h hφ hacc (ix1 r)
      = (Finset.univ : Finset (Fin b)).fold max (FloatOps.ofBits φ acc) (fun k => src (ix2 r k)) := by
  rw [Ideal.multiReduction_maximumf_single]
  exact congrArg ((Finset.univ : Finset (Fin b)).fold max (FloatOps.ofBits φ acc)) (funext fun k => congrArg src (funext fun c => Fin.ext (by
    match c with | ⟨0, _⟩ => rfl | ⟨1, _⟩ => rfl)))

/-- Over the extended reals, a one-operand reduction by `max` of an `[a, b, c]` array along its last axis is, at
    `(p, r)`, the fold of `max` from the initial value over the `c` entries of that row. -/
theorem hostReduce_maximumf_abc_ab_apply {φ : FTy} {a b c : ℕ} {u : Shape} (x : (⟨3, ![a, b, c]⟩ : Shape).Idx → Ideal φ)
    (init : u.Idx → Ideal φ) (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (p : Fin a) (r : Fin b) :
    Host.reduce (FloatOps.maximumf (F := Ideal) (φ := φ)) x init h' hu (ix2 p r)
      = (Finset.univ : Finset (Fin c)).fold max (init (Shape.Idx.first hu)) (fun k => x (ix3 p r k)) := by
  rw [Host.reduce_eq_fold_single (FloatOps.maximumf (F := Ideal) (φ := φ)) x init h' h hu (ix2 p r)]
  exact congrArg ((Finset.univ : Finset (Fin c)).fold max (init (Shape.Idx.first hu))) (funext fun k => congrArg x (funext fun d => Fin.ext (by
    match d with | ⟨0, _⟩ => rfl | ⟨1, _⟩ => rfl | ⟨2, _⟩ => rfl)))

end Cert.Lib.RowMax
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.Payload.lean ====
/-
  What the kernel body stores, read entry by entry over the extended reals.

  The body stores three arrays. The first two are the projected key rows and the projected value rows of one batch
  entry: row `s` of the [2048, 1024] block times the weight matrix, plus the bias row (`pay1_apply`, `pay2_apply`; a
  change of float format is the identity here). The third is a block of 256 output rows: the 256 query rows of the
  block are projected the same way (`qrows_apply`), each meets the 2048 projected key rows held in the first scratch
  array in the scaled scores (`scores_apply`: the transposed scratch array on the right of a plain matrix product), a
  row of scores becomes softmax weights — its maximum taken along the row and subtracted, exponentials, their sum along
  the row, the quotient (`weights_apply`) —, and the weights meet the projected value rows held in the second scratch
  array in one more matrix product (`pay3_apply`). Entry `(p, v)` of the block is `attnRow` of query row `p`.
-/
import proofs.«105239_j4776003633411_2_alg».proof.Proof.Gen.KernelIdeal.Skeleton
import proofs.«105239_j4776003633411_2_alg».proof.Proof.Spec
import proofs.«105239_j4776003633411_2_alg».proof.Proof.LibMatmul
import proofs.«105239_j4776003633411_2_alg».proof.Proof.LibRowMax
import proofs.«105239_j4776003633411_2_alg».proof.Proof.LibColumns
import Idealize.ShloMosaic.Lib.ValueLayout
import Idealize.ShloMosaic.Lib.Pipeline.Value

open scoped BigOperators

noncomputable section

namespace Cert.KernelIdeal.Pay

open Cert.KernelIdeal Cert.KernelIdeal.Gen Idealize.ShloMosaic Idealize.ShloMosaic.ValueIdx Cert.Attn

/-- The 256 projected query rows of a block, as the body computes them. -/
def qrows (v3 : Vec Ideal S1x256x1024 .f32) (v6 : Vec Ideal S1024x64 .f32) (v9 : Vec Ideal S1x64 .f32) : FVec Ideal S256x64 .bf16 :=
  truncf .bf16 (addf (matmul dot_S256x1024_S1024x64_S256x64_1_0_0_1_n_n none
      (truncf .bf16 (shapeCast S256x1024 v3 shapeCasts_S1x256x1024_S256x1024) bitsLt_bf16_f32) (truncf .bf16 v6 bitsLt_bf16_f32)
      (constant S256x64 .f32 0x00000000#32))
    (broadcastTo S256x64 (shapeCast S1x64 v9 shapeCasts_S1x64_S1x64) broadcasts_S1x64_S256x64)) bitsLt_bf16_f32

/-- The scaled scores of 256 query rows against the 2048 key rows of the scratch array. -/
def scores (q : FVec Ideal S256x64 .bf16) (v14 : FVec Ideal S2048x64 .bf16) : FVec Ideal S256x2048 .f32 :=
  mulf (matmul dot_S256x64_S64x2048_S256x2048_1_0_0_1_n_n none q
      (transpose S64x2048 [1, 0] v14 transposes_S2048x64_p1_0_S64x2048) (constant S256x2048 .f32 0x00000000#32))
    (broadcast S256x2048 (Scalar.ofBits .f32 0x3E000000#32))

/-- The maximum of each row, as a column spread back over the row. -/
def maxcol (sc : FVec Ideal S256x2048 .f32) : FVec Ideal S256x2048 .f32 :=
  broadcastTo S256x2048 (shapeCast S256x1 (multiReduction .maximumf [1] S256 sc 0xFF800000#32 reduces_S256x2048_S256 (.inl rfl) rfl)
    shapeCasts_S256_S256x1) broadcasts_S256x1_S256x2048

/-- The sum of each row, as a column spread back over the row. -/
def sumcol (ex : FVec Ideal S256x2048 .f32) : FVec Ideal S256x2048 .f32 :=
  broadcastTo S256x2048 (shapeCast S256x1 (multiReduction .add [1] S256 ex 0x00000000#32 reduces_S256x2048_S256 (.inl rfl) rfl)
    shapeCasts_S256_S256x1) broadcasts_S256x1_S256x2048

/-- The softmax weights of each row of scores. -/
def weights (sc : FVec Ideal S256x2048 .f32) : FVec Ideal S256x2048 .f32 :=
  divf (exp (subf sc (maxcol sc))) (sumcol (exp (subf sc (maxcol sc))))

/-- The third stored array is the weights of the scores times the second scratch array, as a [1, 256, 64] block. -/
theorem pay3_eq (v3 : Vec Ideal S1x256x1024 .f32) (v6 : Vec Ideal S1024x64 .f32) (v9 : Vec Ideal S1x64 .f32)
    (v14 v29 : FVec Ideal S2048x64 .bf16) :
    k0_pay3 v3 v6 v9 v14 v29 = shapeCast S1x256x64 (matmul dot_S256x2048_S2048x64_S256x64_1_0_0_1_n_n none
      (truncf .bf16 (weights (scores (qrows v3 v6 v9) v14)) bitsLt_bf16_f32) (v29 : FVec Ideal S2048x64 .bf16) (constant S256x64 .f32 0x00000000#32))
      shapeCasts_S256x64_S1x256x64 := rfl

/-- Row `s` of the first stored array: the projection of row `s` of the key block. -/
theorem pay1_apply (x : Vec Ideal S1x2048x1024 .f32) (w : Vec Ideal S1024x64 .f32) (b : Vec Ideal S1x64 .f32) (s : Fin 2048) (e : Fin 64) :
    k0_pay1 x w b (ix2 s e) = proj (fun d => x (ix3 0 s d)) (fun d e => w (ix2 d e)) (fun e => b (ix2 0 e)) e := by
  unfold k0_pay1 proj
  dsimp only
  rw [shapeCast_self, shapeCast_self, truncf_apply, addf_apply]
  refine congrArg₂ (· + ·) ?_ (broadcastTo_1b_ab_apply b broadcasts_S1x64_S2048x64 s e)
  refine (Cert.Lib.Matmul.matmul_plain_zero_apply (M := 2048) (K := 1024) (N := 64) none _ _ s e).trans ?_
  refine Finset.sum_congr rfl fun d _ => ?_
  rw [truncf_apply, truncf_apply, shapeCast_1ab_ab_apply]

/-- Row `s` of the second stored array: the projection of row `s` of the value block. -/
theorem pay2_apply (x : Vec Ideal S1x2048x1024 .f32) (w : Vec Ideal S1024x64 .f32) (b : Vec Ideal S1x64 .f32) (s : Fin 2048) (e : Fin 64) :
    k0_pay2 x w b (ix2 s e) = proj (fun d => x (ix3 0 s d)) (fun d e => w (ix2 d e)) (fun e => b (ix2 0 e)) e :=
  pay1_apply x w b s e

/-- Query row `p` of the block, projected. -/
theorem qrows_apply (v3 : Vec Ideal S1x256x1024 .f32) (v6 : Vec Ideal S1024x64 .f32) (v9 : Vec Ideal S1x64 .f32) (p : Fin 256) (e : Fin 64) :
    qrows v3 v6 v9 (ix2 p e) = proj (fun d => v3 (ix3 0 p d)) (fun d e => v6 (ix2 d e)) (fun e => v9 (ix2 0 e)) e := by
  unfold qrows proj
  rw [shapeCast_self, truncf_apply, addf_apply]
  refine congrArg₂ (· + ·) ?_ (broadcastTo_1b_ab_apply v9 broadcasts_S1x64_S256x64 p e)
  refine (Cert.Lib.Matmul.matmul_plain_zero_apply (M := 256) (K := 1024) (N := 64) none _ _ p e).trans ?_
  refine Finset.sum_congr rfl fun d _ => ?_
  rw [truncf_apply, truncf_apply, shapeCast_1ab_ab_apply]

/-- The score of query row `p` against key row `s`. -/
theorem scores_apply (q : FVec Ideal S256x64 .bf16) (v14 : FVec Ideal S2048x64 .bf16) (p : Fin 256) (s : Fin 2048) :
    scores q v14 (ix2 p s) = score (Ideal.ofBits .f32 0x3E000000#32) (fun e => q (ix2 p e)) (fun s e => v14 (ix2 s e)) s := by
  unfold scores score
  rw [mulf_apply, broadcast_apply]
  refine congrArg₂ (· * ·) ?_ rfl
  refine (Cert.Lib.Matmul.matmul_plain_zero_apply (M := 256) (K := 64) (N := 2048) none _ _ p s).trans ?_
  refine Finset.sum_congr rfl fun e _ => ?_
  rw [transpose_ix2_apply]

/-- The row maximum spread over the row, at any position of row `p`. -/
theorem maxcol_apply (sc : FVec Ideal S256x2048 .f32) (p : Fin 256) (s : Fin 2048) :
    maxcol sc (ix2 p s) = rowMax (Ideal.ofBits .f32 0xFF800000#32) (fun k => sc (ix2 p k)) := by
  unfold maxcol rowMax
  rw [Cert.Lib.Columns.broadcastTo_a1_ab_apply, Cert.Lib.Columns.shapeCast_a_a1_apply]
  exact Cert.Lib.RowMax.multiReduction_maximumf_ab_a_apply sc _ _ _ _ p

/-- The row sum spread over the row, at any position of row `p`. -/
theorem sumcol_apply (ex : FVec Ideal S256x2048 .f32) (p : Fin 256) (s : Fin 2048) :
    sumcol ex (ix2 p s) = ∑ k : Fin 2048, ex (ix2 p k) := by
  unfold sumcol
  rw [Cert.Lib.Columns.broadcastTo_a1_ab_apply, Cert.Lib.Columns.shapeCast_a_a1_apply]
  exact Cert.Lib.Columns.multiReduction_add_ab_a_apply ex _ _ _ _ p

/-- The softmax weight of position `s` in row `p`. -/
theorem weights_apply (sc : FVec Ideal S256x2048 .f32) (p : Fin 256) (s : Fin 2048) :
    weights sc (ix2 p s) = soft (Ideal.ofBits .f32 0xFF800000#32) (fun k => sc (ix2 p k)) s := by
  have hex : ∀ k : Fin 2048, exp (subf sc (maxcol sc)) (ix2 p k)
      = Ideal.exp (sc (ix2 p k) - rowMax (Ideal.ofBits .f32 0xFF800000#32) (fun k => sc (ix2 p k))) := fun k => by
    show Ideal.exp (subf sc (maxcol sc) (ix2 p k)) = _
    rw [subf_apply, maxcol_apply]
  unfold weights soft
  rw [divf_apply, sumcol_apply, hex s]
  exact congrArg (Ideal.div _) (Finset.sum_congr rfl fun k _ => hex k)

/-- Entry `(p, v)` of the third stored array: the output row of query row `p` of the block, against the key rows in the
    first scratch array and the value rows in the second. -/
theorem pay3_apply (v3 : Vec Ideal S1x256x1024 .f32) (v6 : Vec Ideal S1024x64 .f32) (v9 : Vec Ideal S1x64 .f32)
    (v14 v29 : FVec Ideal S2048x64 .bf16) (u : Fin 1) (p : Fin 256) (v : Fin 64) :
    k0_pay3 v3 v6 v9 v14 v29 (ix3 u p v)
      = attnRow (Ideal.ofBits .f32 0x3E000000#32) (Ideal.ofBits .f32 0xFF800000#32)
          (proj (fun d => v3 (ix3 0 p d)) (fun d e => v6 (ix2 d e)) (fun e => v9 (ix2 0 e)))
          (fun s e => v14 (ix2 s e)) (fun s v => v29 (ix2 s v)) v := by
  rw [pay3_eq, shapeCast_ab_1ab_apply]
  refine (Cert.Lib.Matmul.matmul_plain_zero_apply (M := 256) (K := 2048) (N := 64) none _ _ p v).trans ?_
  unfold attnRow
  refine Finset.sum_congr rfl fun s _ => ?_
  rw [truncf_apply, weights_apply]
  refine congrArg (fun f => soft (Ideal.ofBits .f32 0xFF800000#32) f s * v29 (ix2 s v)) (funext fun k => ?_)
  rw [scores_apply]
  exact congrArg (fun f => score (Ideal.ofBits .f32 0x3E000000#32) f (fun s e => v14 (ix2 s e)) k)
    (funext fun e => qrows_apply v3 v6 v9 p e)

end Cert.KernelIdeal.Pay

end
-- ==== Proof.Pieces.lean ====
/-
  What one run of the kernel body leaves in the buffers it writes, as values of what it read.

  The body's stores each cover their buffer whole, so a buffer ends holding the value of its last store, and a load of a
  buffer the body has just stored into reads that value back. At the first point of a batch entry (the branch that
  fills the scratch arrays) the first scratch array ends at the projected key rows, the second at the projected value
  rows, and the output block at the attention rows computed FROM those two values (`keys_first`, `values_first`,
  `block_first`). At every other point the scratch arrays are only read, and the output block is the attention rows
  computed from what they already held (`block_later`).
-/
import proofs.«105239_j4776003633411_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a batch entry: the first scratch array ends at the projected key rows. -/
theorem keys_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1024x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S1x64 .f32) (harg10 : arg10.IsWhole) (arg11 : Memref sig .tc .vmem S1x256x64 .f32) (harg11 : arg11.IsWhole) (arg12 : Memref sig .tc .vmem S2048x64 .bf16) (harg12 : arg12.IsWhole) (arg13 : Memref sig .tc .vmem S2048x64 .bf16) (harg13 : arg13.IsWhole) (hc0 : cond0_0 i) (x0 : Vec F S1x256x1024 .f32) (x1 : Vec F S1x2048x1024 .f32) (x2 : Vec F S1x2048x1024 .f32) (x3 : Vec F S1024x64 .f32) (x4 : Vec F S1x64 .f32) (x5 : Vec F S1024x64 .f32) (x6 : Vec F S1x64 .f32) (x7 : Vec F S1024x64 .f32) (x8 : Vec F S1x64 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay1 x1 x5 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1x2048x1024) hz3, View.ld_unit_zero (S := S1x256x1024) hz3, View.ld_unit_zero (S := S1024x64) hz2, View.ld_unit_zero (S := S1x64) hz2]

/-- First point of a batch entry: the second scratch array ends at the projected value rows. -/
theorem values_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1024x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S1x64 .f32) (harg10 : arg10.IsWhole) (arg11 : Memref sig .tc .vmem S1x256x64 .f32) (harg11 : arg11.IsWhole) (arg12 : Memref sig .tc .vmem S2048x64 .bf16) (harg12 : arg12.IsWhole) (arg13 : Memref sig .tc .vmem S2048x64 .bf16) (harg13 : arg13.IsWhole) (hc0 : cond0_0 i) (x0 : Vec F S1x256x1024 .f32) (x1 : Vec F S1x2048x1024 .f32) (x2 : Vec F S1x2048x1024 .f32) (x3 : Vec F S1024x64 .f32) (x4 : Vec F S1x64 .f32) (x5 : Vec F S1024x64 .f32) (x6 : Vec F S1x64 .f32) (x7 : Vec F S1024x64 .f32) (x8 : Vec F S1x64 .f32) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay2 x2 x7 x8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1x2048x1024) hz3, View.ld_unit_zero (S := S1x256x1024) hz3, View.ld_unit_zero (S := S1024x64) hz2, View.ld_unit_zero (S := S1x64) hz2]

/-- First point of a batch entry: the output block is the attention rows over the two values just stored. -/
theorem block_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1024x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S1x64 .f32) (harg10 : arg10.IsWhole) (arg11 : Memref sig .tc .vmem S1x256x64 .f32) (harg11 : arg11.IsWhole) (arg12 : Memref sig .tc .vmem S2048x64 .bf16) (harg12 : arg12.IsWhole) (arg13 : Memref sig .tc .vmem S2048x64 .bf16) (harg13 : arg13.IsWhole) (hc0 : cond0_0 i) (x0 : Vec F S1x256x1024 .f32) (x1 : Vec F S1x2048x1024 .f32) (x2 : Vec F S1x2048x1024 .f32) (x3 : Vec F S1024x64 .f32) (x4 : Vec F S1x64 .f32) (x5 : Vec F S1024x64 .f32) (x6 : Vec F S1x64 .f32) (x7 : Vec F S1024x64 .f32) (x8 : Vec F S1x64 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay3 x0 x3 x4 (k0_pay1 x1 x5 x6) (k0_pay2 x2 x7 x8) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz3, View.readCov_unit_zero (S := S2048x64) _ hz2, View.readCov_unit_zero (S := S2048x64) _ hz2]
  simp only [View.readAt_eq_ld, harg2.read_unread, harg3.read_unread, harg4.read_unread, harg5.read_unread, harg6.read_unread, harg7.read_unread, harg8.read_unread, harg9.read_unread, harg10.read_unread, View.ld_unit_zero (S := S1x2048x1024) hz3, View.ld_unit_zero (S := S1x256x1024) hz3, View.ld_unit_zero (S := S1024x64) hz2, View.ld_unit_zero (S := S1x64) hz2]

/-- Any later point: the output block is the attention rows over what the scratch arrays held. -/
theorem block_later (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1x2048x1024 .f32) (harg4 : arg4.IsWhole) (arg5 : Memref sig .tc .vmem S1024x64 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S1x64 .f32) (harg10 : arg10.IsWhole) (arg11 : Memref sig .tc .vmem S1x256x64 .f32) (harg11 : arg11.IsWhole) (arg12 : Memref sig .tc .vmem S2048x64 .bf16) (harg12 : arg12.IsWhole) (arg13 : Memref sig .tc .vmem S2048x64 .bf16) (harg13 : arg13.IsWhole) (hc0 : ¬cond0_0 i) (x0 : Vec F S1x256x1024 .f32) (x1 : Vec F S1x2048x1024 .f32) (x2 : Vec F S1x2048x1024 .f32) (x3 : Vec F S1024x64 .f32) (x4 : Vec F S1x64 .f32) (x5 : Vec F S1024x64 .f32) (x6 : Vec F S1x64 .f32) (x7 : Vec F S1024x64 .f32) (x8 : Vec F S1x64 .f32) (xs0 xs1 : Vec F S2048x64 .bf16) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = k0_pay3 x0 x3 x4 xs0 xs1 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1)]
  unfold kernelRun0_B
  dsimp only
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1x2048x1024) hz3, View.ld_unit_zero (S := S1x256x1024) hz3, View.ld_unit_zero (S := S1024x64) hz2, View.ld_unit_zero (S := S1x64) hz2, harg12.read_unread, harg13.read_unread, View.ld_unit_zero (S := S2048x64) hz2]

end Cert.KernelIdeal.Pieces

end
-- ==== Proof.Blocks.lean ====
/-
  What the body's input blocks are, entry by entry, in terms of the arrays the program was launched with.

  Grid point `n` works on batch entry `n / 8` and on query tile `n % 8` of it. Its query block is rows
  `256 · (n % 8) …` of that entry of the query array; its key and value blocks are the whole entry of the key and
  value arrays; the three weight matrices are read whole at every point; and each bias row is the bias vector, which the
  program reshapes to a one-row matrix before the launch.
-/
import proofs.«105239_j4776003633411_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The batch entry a grid point works on: the points run through the 8 query tiles of entry 0, then of entry 1, … -/
def batchOf (n : ℕ) : Fin 4 := ⟨n / 8 % 4, Nat.mod_lt _ (by norm_num)⟩

/-- The row of the batch entry that row `p` of a grid point's query tile is: tile `n % 8` starts at row `256 · (n % 8)`. -/
def rowOf (n : ℕ) (p : Fin 256) : Fin 2048 := ⟨256 * (n % 8) + p.val, by have := p.isLt; have := Nat.mod_lt n (show 0 < 8 by norm_num); omega⟩

/-- Where the query window's block sits at each grid point (decided over the 32 points). -/
theorem query_index : ∀ t : Fin cfg0.N, win0_0.index t (0 : Fin 3) = t.val / 8 % 4 ∧ win0_0.index t (1 : Fin 3) = t.val % 8 ∧ win0_0.index t (2 : Fin 3) = 0 :=
  (by decide +kernel : ∀ t : Fin grid0.N, _)

/-- Where the key window's block sits at each grid point. -/
theorem key_index : ∀ t : Fin cfg0.N, win0_1.index t (0 : Fin 3) = t.val / 8 % 4 ∧ win0_1.index t (1 : Fin 3) = 0 ∧ win0_1.index t (2 : Fin 3) = 0 :=
  (by decide +kernel : ∀ t : Fin grid0.N, _)

/-- Where the value window's block sits at each grid point. -/
theorem value_index : ∀ t : Fin cfg0.N, win0_2.index t (0 : Fin 3) = t.val / 8 % 4 ∧ win0_2.index t (1 : Fin 3) = 0 ∧ win0_2.index t (2 : Fin 3) = 0 :=
  (by decide +kernel : ∀ t : Fin grid0.N, _)

/-- The weight and bias windows never move. -/
theorem fixed_index : ∀ t : Fin cfg0.N,
    (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_8.index t (0 : Fin 2) = 0 ∧ win0_8.index t (1 : Fin 2) = 0) :=
  (by decide +kernel : ∀ t : Fin grid0.N, _)

/-- Where the output window's block sits at each grid point. -/
theorem out_index : ∀ t : Fin cfg0.N, win0_9.index t (0 : Fin 3) = t.val / 8 % 4 ∧ win0_9.index t (1 : Fin 3) = t.val % 8 ∧ win0_9.index t (2 : Fin 3) = 0 :=
  (by decide +kernel : ∀ t : Fin grid0.N, _)

/-- Row `p` of the query block of point `t` is row `rowOf t p` of batch entry `batchOf t` of the query array. -/
theorem query_block (c : Dev nD) (t : Fin cfg0.N) (p : Fin 256) (d : Fin 1024) :
    iblk m c 0 t (ix3 (0 : Fin 1) p d) = m ((c : Thread nD τ).loc main_arg0) (ix3 (batchOf t.val) (rowOf t.val p) d) := by
  unfold iblk
  rw [View.read_apply]
  show V m c main_arg0 _ = _
  rw [V_main_arg0]
  obtain ⟨e0, e1, e2⟩ := query_index t
  refine congrArg _ (funext fun a => Fin.ext ?_)
  match a with
  | ⟨0, _⟩ => show win0_0.index t (0 : Fin 3) * 1 + 1 * 0 = t.val / 8 % 4; omega
  | ⟨1, _⟩ => show win0_0.index t (1 : Fin 3) * 256 + 1 * p.val = 256 * (t.val % 8) + p.val; omega
  | ⟨2, _⟩ => show win0_0.index t (2 : Fin 3) * 1024 + 1 * d.val = d.val; omega

/-- Row `s` of the key block of point `t` is row `s` of batch entry `batchOf t` of the key array. -/
theorem key_block (c : Dev nD) (t : Fin cfg0.N) (s : Fin 2048) (d : Fin 1024) :
    iblk m c 1 t (ix3 (0 : Fin 1) s d) = m ((c : Thread nD τ).loc main_arg1) (ix3 (batchOf t.val) s d) := by
  unfold iblk
  rw [View.read_apply]
  show V m c main_arg1 _ = _
  rw [V_main_arg1]
  obtain ⟨e0, e1, e2⟩ := key_index t
  refine congrArg _ (funext fun a => Fin.ext ?_)
  match a with
  | ⟨0, _⟩ => show win0_1.index t (0 : Fin 3) * 1 + 1 * 0 = t.val / 8 % 4; omega
  | ⟨1, _⟩ => show win0_1.index t (1 : Fin 3) * 2048 + 1 * s.val = s.val; omega
  | ⟨2, _⟩ => show win0_1.index t (2 : Fin 3) * 1024 + 1 * d.val = d.val; omega

/-- Row `s` of the value block of point `t` is row `s` of batch entry `batchOf t` of the value array. -/
theorem value_block (c : Dev nD) (t : Fin cfg0.N) (s : Fin 2048) (d : Fin 1024) :
    iblk m c 2 t (ix3 (0 : Fin 1) s d) = m ((c : Thread nD τ).loc main_arg2) (ix3 (batchOf t.val) s d) := by
  unfold iblk
  rw [View.read_apply]
  show V m c main_arg2 _ = _
  rw [V_main_arg2]
  obtain ⟨e0, e1, e2⟩ := value_index t
  refine congrArg _ (funext fun a => Fin.ext ?_)
  match a with
  | ⟨0, _⟩ => show win0_2.index t (0 : Fin 3) * 1 + 1 * 0 = t.val / 8 % 4; omega
  | ⟨1, _⟩ => show win0_2.index t (1 : Fin 3) * 2048 + 1 * s.val = s.val; omega
  | ⟨2, _⟩ => show win0_2.index t (2 : Fin 3) * 1024 + 1 * d.val = d.val; omega

/-- The query weight block is the query weight matrix. -/
theorem wq_block (c : Dev nD) (t : Fin cfg0.N) (d : Fin 1024) (e : Fin 64) :
    iblk m c 3 t (ix2 d e) = m ((c : Thread nD τ).loc main_arg3) (ix2 d e) := by
  unfold iblk
  rw [View.read_apply]
  show V m c main_arg3 _ = _
  rw [V_main_arg3]
  obtain ⟨⟨e0, e1⟩, -⟩ := fixed_index t
  refine congrArg _ (funext fun a => Fin.ext ?_)
  match a with
  | ⟨0, _⟩ => show win0_3.index t (0 : Fin 2) * 1024 + 1 * d.val = d.val; omega
  | ⟨1, _⟩ => show win0_3.index t (1 : Fin 2) * 64 + 1 * e.val = e.val; omega

/-- The key weight block is the key weight matrix. -/
theorem wk_block (c : Dev nD) (t : Fin cfg0.N) (d : Fin 1024) (e : Fin 64) :
    iblk m c 5 t (ix2 d e) = m ((c : Thread nD τ).loc main_arg5) (ix2 d e) := by
  unfold iblk
  rw [View.read_apply]
  show V m c main_arg5 _ = _
  rw [V_main_arg5]
  obtain ⟨-, -, ⟨e0, e1⟩, -⟩ := fixed_index t
  refine congrArg _ (funext fun a => Fin.ext ?_)
  match a with
  | ⟨0, _⟩ => show win0_5.index t (0 : Fin 2) * 1024 + 1 * d.val = d.val; omega
  | ⟨1, _⟩ => show win0_5.index t (1 : Fin 2) * 64 + 1 * e.val = e.val; omega

/-- The value weight block is the value weight matrix. -/
theorem wv_block (c : Dev nD) (t : Fin cfg0.N) (d : Fin 1024) (e : Fin 64) :
    iblk m c 7 t (ix2 d e) = m ((c : Thread nD τ).loc main_arg7) (ix2 d e) := by
  unfold iblk
  rw [View.read_apply]
  show V m c main_arg7 _ = _
  rw [V_main_arg7]
  obtain ⟨-, -, -, -, ⟨e0, e1⟩, -⟩ := fixed_index t
  refine congrArg _ (funext fun a => Fin.ext ?_)
  match a with
  | ⟨0, _⟩ => show win0_7.index t (0 : Fin 2) * 1024 + 1 * d.val = d.val; omega
  | ⟨1, _⟩ => show win0_7.index t (1 : Fin 2) * 64 + 1 * e.val = e.val; omega

/-- The one-row matrices the program makes of the three bias vectors before the launch. -/
theorem bq_row (c : Dev nD) : (V m c main_v0 : S1x64.Idx → Elt F .f32) = shapeCast S1x64 (m ((c : Thread nD τ).loc main_arg4)) shapeCasts_S64_S1x64 := by
  dsimp only [Gen.V, Gen.hostOps0]; after_results; rfl
theorem bk_row (c : Dev nD) : (V m c main_v1 : S1x64.Idx → Elt F .f32) = shapeCast S1x64 (m ((c : Thread nD τ).loc main_arg6)) shapeCasts_S64_S1x64 := by
  dsimp only [Gen.V, Gen.hostOps0]; after_results; rfl
theorem bv_row (c : Dev nD) : (V m c main_v2 : S1x64.Idx → Elt F .f32) = shapeCast S1x64 (m ((c : Thread nD τ).loc main_arg8)) shapeCasts_S64_S1x64 := by
  dsimp only [Gen.V, Gen.hostOps0]; after_results; rfl

/-- The query bias block's entry `e` is the bias vector's. -/
theorem bq_block (c : Dev nD) (t : Fin cfg0.N) (e : Fin 64) :
    iblk m c 4 t (ix2 (0 : Fin 1) e) = m ((c : Thread nD τ).loc main_arg4) (ix1 e) := by
  unfold iblk
  rw [View.read_apply]
  show V m c main_v0 _ = _
  rw [bq_row]
  obtain ⟨-, ⟨e0, e1⟩, -⟩ := fixed_index t
  refine (congrArg _ (funext fun a => Fin.ext ?_)).trans (shapeCast_a_1a_apply _ shapeCasts_S64_S1x64 (0 : Fin 1) e)
  match a with
  | ⟨0, _⟩ => show win0_4.index t (0 : Fin 2) * 1 + 1 * 0 = 0; omega
  | ⟨1, _⟩ => show win0_4.index t (1 : Fin 2) * 64 + 1 * e.val = e.val; omega

/-- The key bias block's entry `e` is the bias vector's. -/
theorem bk_block (c : Dev nD) (t : Fin cfg0.N) (e : Fin 64) :
    iblk m c 6 t (ix2 (0 : Fin 1) e) = m ((c : Thread nD τ).loc main_arg6) (ix1 e) := by
  unfold iblk
  rw [View.read_apply]
  show V m c main_v1 _ = _
  rw [bk_row]
  obtain ⟨-, -, -, ⟨e0, e1⟩, -⟩ := fixed_index t
  refine (congrArg _ (funext fun a => Fin.ext ?_)).trans (shapeCast_a_1a_apply _ shapeCasts_S64_S1x64 (0 : Fin 1) e)
  match a with
  | ⟨0, _⟩ => show win0_6.index t (0 : Fin 2) * 1 + 1 * 0 = 0; omega
  | ⟨1, _⟩ => show win0_6.index t (1 : Fin 2) * 64 + 1 * e.val = e.val; omega

/-- The value bias block's entry `e` is the bias vector's. -/
theorem bv_block (c : Dev nD) (t : Fin cfg0.N) (e : Fin 64) :
    iblk m c 8 t (ix2 (0 : Fin 1) e) = m ((c : Thread nD τ).loc main_arg8) (ix1 e) := by
  unfold iblk
  rw [View.read_apply]
  show V m c main_v2 _ = _
  rw [bv_row]
  obtain ⟨-, -, -, -, -, ⟨e0, e1⟩⟩ := fixed_index t
  refine (congrArg _ (funext fun a => Fin.ext ?_)).trans (shapeCast_a_1a_apply _ shapeCasts_S64_S1x64 (0 : Fin 1) e)
  match a with
  | ⟨0, _⟩ => show win0_8.index t (0 : Fin 2) * 1 + 1 * 0 = 0; omega
  | ⟨1, _⟩ => show win0_8.index t (1 : Fin 2) * 64 + 1 * e.val = e.val; omega

end Cert.KernelIdeal.Blocks

end
-- ==== Proof.Whole.lean ====
/-
  The whole result: entry `(b, r, v)` of the [4, 2048, 64] output is the output row of query row `r` of batch entry `b`
  — that row projected by the query weights and bias — against the 2048 projected key rows and the 2048 projected
  value rows of the same batch entry, at the scale one eighth, the row maximum folded from minus infinity.
-/
import proofs.«105239_j4776003633411_2_alg».proof.Proof.Spec

noncomputable section

namespace Cert.Attn

open Idealize.ShloMosaic Idealize.ShloMosaic.ValueIdx

/-- One attention head over the nine argument arrays, as one function of the output index. -/
def attention (Q K V : (⟨3, ![4, 2048, 1024]⟩ : Shape).Idx → EReal)
    (Wq : (⟨2, ![1024, 64]⟩ : Shape).Idx → EReal) (bq : (⟨1, ![64]⟩ : Shape).Idx → EReal)
    (Wk : (⟨2, ![1024, 64]⟩ : Shape).Idx → EReal) (bk : (⟨1, ![64]⟩ : Shape).Idx → EReal)
    (Wv : (⟨2, ![1024, 64]⟩ : Shape).Idx → EReal) (bv : (⟨1, ![64]⟩ : Shape).Idx → EReal) :
    (⟨3, ![4, 2048, 64]⟩ : Shape).Idx → EReal := fun i =>
  attnRow (Ideal.ofBits .f32 0x3E000000#32) (Ideal.ofBits .f32 0xFF800000#32)
    (proj (fun d => Q (ix3 (i 0) (i 1) d)) (fun d e => Wq (ix2 d e)) (fun e => bq (ix1 e)))
    (fun s => proj (fun d => K (ix3 (i 0) s d)) (fun d e => Wk (ix2 d e)) (fun e => bk (ix1 e)))
    (fun s => proj (fun d => V (ix3 (i 0) s d)) (fun d e => Wv (ix2 d e)) (fun e => bv (ix1 e)))
    (i 2)

end Cert.Attn

end
-- ==== Proof.KernelHead.lean ====
/-
  The kernel's result array, read entry by entry over the extended reals, is the attention head of the specification.

  The two scratch arrays are filled at the first query tile of each batch entry and only read at the other seven, so
  after ANY grid point they hold the projected key rows and the projected value rows of the batch entry the point works
  on (`scratch_at`, by induction along the grid: a first tile stores them, a later tile keeps what the point before
  left, and both points belong to the same batch entry). Hence the block a point writes back is, row by row, the output
  row of its query rows against that batch entry's projected keys and values (`block_at`); that block sits at rows
  `256 · (n % 8) …` of entry `n / 8` of the result array (`flushed_eq`); the 32 blocks tile the array (`cover`); so the
  array ends holding the attention head of the nine arguments (`final`, `run`).
-/
import proofs.«105239_j4776003633411_2_alg».proof.Proof.Gen.KernelIdeal.Value
import proofs.«105239_j4776003633411_2_alg».proof.Proof.Payload
import proofs.«105239_j4776003633411_2_alg».proof.Proof.Pieces
import proofs.«105239_j4776003633411_2_alg».proof.Proof.Blocks
import proofs.«105239_j4776003633411_2_alg».proof.Proof.Whole

open scoped BigOperators

noncomputable section

namespace Cert.KernelIdeal.Head

open Cert.KernelIdeal Cert.KernelIdeal.Gen Idealize.ShloMosaic Idealize.ShloMosaic.TcCoe Idealize.SL.Sem
open Idealize.ShloMosaic.ValueIdx Cert.Attn Cert.KernelIdeal.Blocks
open Idealize.ShloMosaic.Pipeline (Dat)

section AnyFloats

variable {F : FTy → Type} [FloatOps F]
variable (m : (ℓ : Loc nD τ sig) → Buf (Elt F) ℓ)

set_option maxHeartbeats 1600000 in
/-- At the first query tile of a batch entry: the block and the two scratch arrays after the point, as values of the
    point's input blocks. -/
theorem outs_first (c : Dev nD) (t : Fin cfg0.N) (h0 : t.val % 8 = 0) :
    (outsAt0 m c t.val t.isLt).1 = k0_pay3 (iblk m c 0 t) (iblk m c 3 t) (iblk m c 4 t)
        (k0_pay1 (iblk m c 1 t) (iblk m c 5 t) (iblk m c 6 t)) (k0_pay2 (iblk m c 2 t) (iblk m c 7 t) (iblk m c 8 t))
    ∧ (outsAt0 m c t.val t.isLt).2.1 = k0_pay1 (iblk m c 1 t) (iblk m c 5 t) (iblk m c 6 t)
    ∧ (outsAt0 m c t.val t.isLt).2.2 = k0_pay2 (iblk m c 2 t) (iblk m c 7 t) (iblk m c 8 t) := by
  rw [outsAt0_A m c t h0]
  dsimp only
  refine ⟨?_, ?_, ?_⟩
  · exact Pieces.block_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
  · exact Pieces.keys_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
  · exact Pieces.values_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)

set_option maxHeartbeats 1600000 in
/-- At a later query tile: the block over what the point before left in the scratch arrays, which stay as they were. -/
theorem outs_later (c : Dev nD) (t : Fin cfg0.N) (h0 : ¬t.val % 8 = 0) :
    (outsAt0 m c t.val t.isLt).1 = k0_pay3 (iblk m c 0 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
    ∧ (outsAt0 m c t.val t.isLt).2.1 = (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_B m c t h0]
  dsimp only
  refine ⟨?_, rfl, rfl⟩
  exact Pieces.block_later (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

/-- At every point the block is the attention rows over what the scratch arrays hold after the point. -/
theorem block_eq (c : Dev nD) (t : Fin cfg0.N) :
    (outsAt0 m c t.val t.isLt).1 = k0_pay3 (iblk m c 0 t) (iblk m c 3 t) (iblk m c 4 t)
      (outsAt0 m c t.val t.isLt).2.1 (outsAt0 m c t.val t.isLt).2.2 := by
  by_cases h0 : t.val % 8 = 0
  · obtain ⟨a, b, d⟩ := outs_first m c t h0
    exact a.trans (congrArg₂ (k0_pay3 (iblk m c 0 t) (iblk m c 3 t) (iblk m c 4 t)) b.symm d.symm)
  · obtain ⟨a, b, d⟩ := outs_later m c t h0
    exact a.trans (congrArg₂ (k0_pay3 (iblk m c 0 t) (iblk m c 3 t) (iblk m c 4 t)) b.symm d.symm)

end AnyFloats

variable (m : (ℓ : Loc nD τ sig) → Buf (Elt Ideal) ℓ) (ρ : Dev nD → PrngReg)

/-- The projected key rows of batch entry `b`. -/
abbrev keyRows (c : Dev nD) (b : Fin 4) : Fin 2048 → Fin 64 → EReal := fun s =>
  proj (fun d => m ((c : Thread nD τ).loc main_arg1) (ix3 b s d)) (fun d e => m ((c : Thread nD τ).loc main_arg5) (ix2 d e))
    (fun e => m ((c : Thread nD τ).loc main_arg6) (ix1 e))

/-- The projected value rows of batch entry `b`. -/
abbrev valueRows (c : Dev nD) (b : Fin 4) : Fin 2048 → Fin 64 → EReal := fun s =>
  proj (fun d => m ((c : Thread nD τ).loc main_arg2) (ix3 b s d)) (fun d e => m ((c : Thread nD τ).loc main_arg7) (ix2 d e))
    (fun e => m ((c : Thread nD τ).loc main_arg8) (ix1 e))

/-- A later query tile works on the batch entry of the point before it. -/
theorem batchOf_succ (k : ℕ) (h : ¬(k + 1) % 8 = 0) : batchOf (k + 1) = batchOf k :=
  Fin.ext (by show (k + 1) / 8 % 4 = k / 8 % 4; omega)

/-- After a first query tile the scratch arrays hold the projections of the point's key and value blocks. -/
theorem scratch_first (c : Dev nD) (t : Fin cfg0.N) (h0 : t.val % 8 = 0) (s : Fin 2048) (e : Fin 64) :
    (outsAt0 m c t.val t.isLt).2.1 (ix2 s e) = keyRows m c (batchOf t.val) s e
    ∧ (outsAt0 m c t.val t.isLt).2.2 (ix2 s e) = valueRows m c (batchOf t.val) s e := by
  obtain ⟨-, h1, h2⟩ := outs_first m c t h0
  constructor
  · refine (congrFun h1 (ix2 s e)).trans ((Pay.pay1_apply (iblk m c 1 t) (iblk m c 5 t) (iblk m c 6 t) s e).trans ?_)
    have e1 : (fun d => iblk m c 1 t (ix3 (0 : Fin 1) s d)) = fun d => m ((c : Thread nD τ).loc main_arg1) (ix3 (batchOf t.val) s d) :=
      funext fun d => key_block m c t s d
    have e2 : (fun d e => iblk m c 5 t (ix2 d e)) = fun d e => m ((c : Thread nD τ).loc main_arg5) (ix2 d e) :=
      funext fun d => funext fun e => wk_block m c t d e
    have e3 : (fun e => iblk m c 6 t (ix2 (0 : Fin 1) e)) = fun e => m ((c : Thread nD τ).loc main_arg6) (ix1 e) :=
      funext fun e => bk_block m c t e
    rw [e1, e2, e3]
  · refine (congrFun h2 (ix2 s e)).trans ((Pay.pay2_apply (iblk m c 2 t) (iblk m c 7 t) (iblk m c 8 t) s e).trans ?_)
    have e1 : (fun d => iblk m c 2 t (ix3 (0 : Fin 1) s d)) = fun d => m ((c : Thread nD τ).loc main_arg2) (ix3 (batchOf t.val) s d) :=
      funext fun d => value_block m c t s d
    have e2 : (fun d e => iblk m c 7 t (ix2 d e)) = fun d e => m ((c : Thread nD τ).loc main_arg7) (ix2 d e) :=
      funext fun d => funext fun e => wv_block m c t d e
    have e3 : (fun e => iblk m c 8 t (ix2 (0 : Fin 1) e)) = fun e => m ((c : Thread nD τ).loc main_arg8) (ix1 e) :=
      funext fun e => bv_block m c t e
    rw [e1, e2, e3]

/-- After ANY grid point the scratch arrays hold the projected key and value rows of the point's batch entry. -/
theorem scratch_at (c : Dev nD) : ∀ (n : ℕ) (h : n < cfg0.N) (s : Fin 2048) (e : Fin 64),
    (outsAt0 m c n h).2.1 (ix2 s e) = keyRows m c (batchOf n) s e
    ∧ (outsAt0 m c n h).2.2 (ix2 s e) = valueRows m c (batchOf n) s e := by
  intro n
  induction n with
  | zero => exact fun h s e => scratch_first m c ⟨0, h⟩ rfl s e
  | succ k ih =>
    intro h s e
    by_cases h0 : (k + 1) % 8 = 0
    · exact scratch_first m c ⟨k + 1, h⟩ h0 s e
    · obtain ⟨-, h1, h2⟩ := outs_later m c ⟨k + 1, h⟩ h0
      have ih' := ih (Nat.lt_of_succ_lt h) s e
      rw [batchOf_succ k h0]
      exact ⟨(congrFun h1 (ix2 s e)).trans ih'.1, (congrFun h2 (ix2 s e)).trans ih'.2⟩

/-- The attention head of the nine argument arrays, as contents of the result array. -/
abbrev result (c : Dev nD) : Buf (Elt Ideal) ((c : Thread nD τ).loc main_v3) :=
  attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Row `p` of the block a point leaves is the output row of row `rowOf n p` of batch entry `batchOf n`. -/
theorem block_at (c : Dev nD) (t : Fin cfg0.N) (u : Fin 1) (p : Fin 256) (v : Fin 64) :
    (outsAt0 m c t.val t.isLt).1 (ix3 u p v) = result m c (ix3 (batchOf t.val) (rowOf t.val p) v) := by
  refine (congrFun (block_eq m c t) (ix3 u p v)).trans ?_
  refine (Pay.pay3_apply (iblk m c 0 t) (iblk m c 3 t) (iblk m c 4 t) (outsAt0 m c t.val t.isLt).2.1
    (outsAt0 m c t.val t.isLt).2.2 u p v).trans ?_
  have eq : (fun d => iblk m c 0 t (ix3 (0 : Fin 1) p d))
      = fun d => m ((c : Thread nD τ).loc main_arg0) (ix3 (batchOf t.val) (rowOf t.val p) d) :=
    funext fun d => query_block m c t p d
  have ew : (fun d e => iblk m c 3 t (ix2 d e)) = fun d e => m ((c : Thread nD τ).loc main_arg3) (ix2 d e) :=
    funext fun d => funext fun e => wq_block m c t d e
  have eb : (fun e => iblk m c 4 t (ix2 (0 : Fin 1) e)) = fun e => m ((c : Thread nD τ).loc main_arg4) (ix1 e) :=
    funext fun e => bq_block m c t e
  have ek : (fun s e => (outsAt0 m c t.val t.isLt).2.1 (ix2 s e)) = keyRows m c (batchOf t.val) :=
    funext fun s => funext fun e => (scratch_at m c t.val t.isLt s e).1
  have ev : (fun s v => (outsAt0 m c t.val t.isLt).2.2 (ix2 s v)) = valueRows m c (batchOf t.val) :=
    funext fun s => funext fun e => (scratch_at m c t.val t.isLt s e).2
  rw [eq, ew, eb, ek, ev]
  rfl

/-- What point `t` writes back is block `t` of the attention head. -/
theorem flushed_eq (c : Dev nD) (t : Fin cfg0.N) :
    (dats m 0 c).flushed 9 t = ((cfg0.win 9).blk t).view.read (Elt Ideal) (result m c) := by
  rw [Value.flushed9]
  funext j
  obtain ⟨u, p, v, rfl⟩ : ∃ (u : Fin 1) (p : Fin 256) (v : Fin 64), j = ix3 u p v := ⟨j 0, j 1, j 2, eq_ix3 j⟩
  show (outsAt0 m c t.val t.isLt).1 (ix3 u p v) = result m c (((cfg0.win 9).blk t).view.emb (ix3 u p v))
  rw [block_at]
  obtain ⟨e0, e1, e2⟩ := out_index t
  refine congrArg _ (funext fun a => Fin.ext ?_)
  match a with
  | ⟨0, _⟩ => show t.val / 8 % 4 = win0_9.index t (0 : Fin 3) * 1 + 1 * u.val; have := u.isLt; omega
  | ⟨1, _⟩ => show 256 * (t.val % 8) + p.val = win0_9.index t (1 : Fin 3) * 256 + 1 * p.val; omega
  | ⟨2, _⟩ => show v.val = win0_9.index t (2 : Fin 3) * 64 + 1 * v.val; omega

/-- An index of the result array is in point `t`'s block iff each coordinate is in the block's range on its axis. -/
theorem mem_blk (t : Fin cfg0.N) (i : S4x2048x64.Idx) :
    i ∈ ((cfg0.win 9).blk t).view.set ↔ ∀ a : Fin 3, win0_9.index t a * S1x256x64.size a ≤ (i a).val
      ∧ (i a).val < win0_9.index t a * S1x256x64.size a + S1x256x64.size a := by
  show i ∈ ((View.whole main_v3).slice (win0_9.rect t)).set ↔ _
  rw [View.set_slice_whole, Rect.mem_set_unit]
  exact Iff.rfl

/-- Every index of the result array is in the block of the point of its batch entry and query tile. -/
theorem cover (i : S4x2048x64.Idx) : ∃ t : Fin cfg0.N, (cfg0.win 9).flush t = true ∧ i ∈ ((cfg0.win 9).blk t).view.set := by
  have h0 : (i 0).val < 4 := (i 0).isLt
  have h1 : (i 1).val < 2048 := (i 1).isLt
  have h2 : (i 2).val < 64 := (i 2).isLt
  have hN : cfg0.N = 32 := N_0
  have hlt : 8 * (i 0).val + (i 1).val / 256 < cfg0.N := by rw [hN]; omega
  obtain ⟨tt, htt⟩ : ∃ tt : Fin cfg0.N, tt.val = 8 * (i 0).val + (i 1).val / 256 := ⟨⟨_, hlt⟩, rfl⟩
  refine ⟨tt, flush0_9 tt, ?_⟩
  rw [mem_blk]
  obtain ⟨e0, e1, e2⟩ := out_index tt
  intro a
  match a with
  | ⟨0, _⟩ => show win0_9.index tt (0 : Fin 3) * 1 ≤ (i 0).val ∧ (i 0).val < win0_9.index tt (0 : Fin 3) * 1 + 1; omega
  | ⟨1, _⟩ => show win0_9.index tt (1 : Fin 3) * 256 ≤ (i 1).val ∧ (i 1).val < win0_9.index tt (1 : Fin 3) * 256 + 256; omega
  | ⟨2, _⟩ => show win0_9.index tt (2 : Fin 3) * 64 ≤ (i 2).val ∧ (i 2).val < win0_9.index tt (2 : Fin 3) * 64 + 64; omega

/-- The result array ends holding the attention head. -/
theorem final (c : Dev nD) : (dats m 0 c).arrAt 9 cfg0.N = result m c :=
  (dats m 0 c).arrAt_eq_of_cover 9 (result m c) (fun t _ => flushed_eq m c t) cover

/-- The kernel's run: the result array at the attention head of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Head

end
-- ==== Proof.RefAttention.lean ====
/-
  The reference, read entry by entry over the extended reals, is the attention head of the specification.

  Its three linear layers are a contraction over the 1024 model coordinates plus the bias spread over the rows
  (`query_rows`, `key_rows`, `value_rows`). Its scale, one over the square root of sixty-four, is one eighth
  (`scale_entry`). Its scores are the contraction of a projected query row with a projected key row over the 64
  coordinates, times the scale (`score_entry`). Its softmax takes the row maximum by a reduction from minus infinity and
  once more against minus infinity, which changes nothing (`max_entry`); subtracts it, exponentiates (`exp_entry`), sums
  along the row from zero (`sum_entry`) and divides (`weight_entry`). Its result contracts the weights with the projected
  value rows over the 2048 positions (`result_is_attention`).
-/
import proofs.«105239_j4776003633411_2_alg».proof.Proof.Gen.ReferenceIdeal.Read
import proofs.«105239_j4776003633411_2_alg».proof.Proof.Whole
import proofs.«105239_j4776003633411_2_alg».proof.Proof.LibRowMax
import Idealize.ShloMosaic.Lib.ValueIdx

open scoped BigOperators

noncomputable section

namespace Cert.ReferenceIdeal.RefValue

open Cert.ReferenceIdeal Cert.ReferenceIdeal.Gen Cert.ReferenceIdeal.Read Idealize.ShloMosaic Idealize.ShloMosaic.ValueIdx Cert.Attn

variable (x0 x1 x2 : (⟨S4x2048x1024, .f32⟩ : BufTy).Contents (Elt Ideal))
variable (x3 x5 x7 : (⟨S1024x64, .f32⟩ : BufTy).Contents (Elt Ideal))
variable (x4 x6 x8 : (⟨S64, .f32⟩ : BufTy).Contents (Elt Ideal))

/-- Row `r` of batch entry `b` of the query array, projected. -/
theorem query_rows (b : Fin 4) (r : Fin 2048) (e : Fin 64) :
    val_main_v3 (F := Ideal) x0 x3 x4 (ix3 b r e)
      = proj (fun d => x0 (ix3 b r d)) (fun d e => x3 (ix2 d e)) (fun e => x4 (ix1 e)) e := by
  rw [val_main_v3_apply, val_main_v0_apply, val_main_v2_apply, val_main_v1_apply]
  unfold proj
  refine congrArg₂ (· + ·) (Finset.sum_congr rfl fun k _ => ?_) (congrArg x4 ?_)
  · exact congrArg₂ (· * ·) (congrArg x0 (funext fun a => Fin.ext (by match a with | ⟨0, _⟩ => rfl | ⟨1, _⟩ => rfl | ⟨2, _⟩ => rfl))) (congrArg x3 (funext fun a => Fin.ext (by match a with | ⟨0, _⟩ => rfl | ⟨1, _⟩ => rfl)))
  · exact funext fun a => Fin.ext (by match a with | ⟨0, _⟩ => rfl)

/-- Row `s` of batch entry `b` of the key array, projected. -/
theorem key_rows (b : Fin 4) (s : Fin 2048) (e : Fin 64) :
    val_main_v7 (F := Ideal) x1 x5 x6 (ix3 b s e)
      = proj (fun d => x1 (ix3 b s d)) (fun d e => x5 (ix2 d e)) (fun e => x6 (ix1 e)) e := by
  rw [val_main_v7_apply, val_main_v4_apply, val_main_v6_apply, val_main_v5_apply]
  unfold proj
  refine congrArg₂ (· + ·) (Finset.sum_congr rfl fun k _ => ?_) (congrArg x6 ?_)
  · exact congrArg₂ (· * ·) (congrArg x1 (funext fun a => Fin.ext (by match a with | ⟨0, _⟩ => rfl | ⟨1, _⟩ => rfl | ⟨2, _⟩ => rfl))) (congrArg x5 (funext fun a => Fin.ext (by match a with | ⟨0, _⟩ => rfl | ⟨1, _⟩ => rfl)))
  · exact funext fun a => Fin.ext (by match a with | ⟨0, _⟩ => rfl)

/-- Row `s` of batch entry `b` of the value array, projected. -/
theorem value_rows (b : Fin 4) (s : Fin 2048) (e : Fin 64) :
    val_main_v11 (F := Ideal) x2 x7 x8 (ix3 b s e)
      = proj (fun d => x2 (ix3 b s d)) (fun d e => x7 (ix2 d e)) (fun e => x8 (ix1 e)) e := by
  rw [val_main_v11_apply, val_main_v8_apply, val_main_v10_apply, val_main_v9_apply]
  unfold proj
  refine congrArg₂ (· + ·) (Finset.sum_congr rfl fun k _ => ?_) (congrArg x8 ?_)
  · exact congrArg₂ (· * ·) (congrArg x2 (funext fun a => Fin.ext (by match a with | ⟨0, _⟩ => rfl | ⟨1, _⟩ => rfl | ⟨2, _⟩ => rfl))) (congrArg x7 (funext fun a => Fin.ext (by match a with | ⟨0, _⟩ => rfl | ⟨1, _⟩ => rfl)))
  · exact funext fun a => Fin.ext (by match a with | ⟨0, _⟩ => rfl)

/-- The scale spread over the scores is one eighth at every entry. -/
theorem scale_entry (i : S4x2048x2048.Idx) : val_main_v15 (F := Ideal) i = Ideal.ofBits .f32 0x3E000000#32 := by
  rw [val_main_v15_apply]
  exact scale_eq

/-- The score of query row `r` against key row `s` of batch entry `b`. -/
theorem score_entry (b : Fin 4) (r s : Fin 2048) :
    val_main_v16 (F := Ideal) x0 x1 x3 x4 x5 x6 (ix3 b r s)
      = score (Ideal.ofBits .f32 0x3E000000#32)
          (proj (fun d => x0 (ix3 b r d)) (fun d e => x3 (ix2 d e)) (fun e => x4 (ix1 e)))
          (fun s => proj (fun d => x1 (ix3 b s d)) (fun d e => x5 (ix2 d e)) (fun e => x6 (ix1 e))) s := by
  rw [val_main_v16_apply, val_main_v14_apply, scale_entry]
  unfold score
  refine congrArg₂ (· * ·) (Finset.sum_congr rfl fun k _ => ?_) rfl
  have el : lidx_main_v14 (ix3 b r s) k = ix3 b r k := funext fun a => Fin.ext (by match a with | ⟨0, _⟩ => rfl | ⟨1, _⟩ => rfl | ⟨2, _⟩ => rfl)
  have er : ridx_main_v14 (ix3 b r s) k = ix3 b s k := funext fun a => Fin.ext (by match a with | ⟨0, _⟩ => rfl | ⟨1, _⟩ => rfl | ⟨2, _⟩ => rfl)
  rw [el, er, query_rows, key_rows]

/-- The row maximum of query row `r`'s scores. -/
theorem max_entry (b : Fin 4) (r : Fin 2048) :
    val_main_v19 (F := Ideal) x0 x1 x3 x4 x5 x6 (ix2 b r)
      = rowMax (Ideal.ofBits .f32 0xFF800000#32) (fun s => val_main_v16 (F := Ideal) x0 x1 x3 x4 x5 x6 (ix3 b r s)) := by
  rw [val_main_v19_apply, val_main_v18_apply]
  unfold val_main_v17
  rw [Cert.Lib.RowMax.hostReduce_maximumf_abc_ab_apply _ _ reducesTo_S4x2048x2048_S4x2048_d2 (by decide) h_S_ b r]
  exact max_rowMax _ _

/-- The exponential of a score less its row's maximum. -/
theorem exp_entry (b : Fin 4) (r s : Fin 2048) :
    val_main_v23 (F := Ideal) x0 x1 x3 x4 x5 x6 (ix3 b r s)
      = Ideal.exp (val_main_v16 (F := Ideal) x0 x1 x3 x4 x5 x6 (ix3 b r s)
          - rowMax (Ideal.ofBits .f32 0xFF800000#32) (fun s => val_main_v16 (F := Ideal) x0 x1 x3 x4 x5 x6 (ix3 b r s))) := by
  rw [val_main_v23_apply, val_main_v22_apply, val_main_v21_apply, val_main_v20_apply]
  have ei : idx_main_v20 (idx_main_v21 (ix3 b r s)) = ix2 b r :=
    funext fun a => Fin.ext (by match a with | ⟨0, _⟩ => rfl | ⟨1, _⟩ => rfl)
  rw [ei, max_entry]
  rfl

/-- The sum of a row's exponentials. -/
theorem sum_entry (b : Fin 4) (r : Fin 2048) :
    val_main_v24 (F := Ideal) x0 x1 x3 x4 x5 x6 (ix2 b r)
      = ∑ s : Fin 2048, val_main_v23 (F := Ideal) x0 x1 x3 x4 x5 x6 (ix3 b r s) := by
  rw [val_main_v24_apply]
  have ez : val_main_cst_3 (F := Ideal) (Shape.Idx.first h_S_) = 0 := Ideal.ofBits_zero_f32
  rw [ez, zero_add]
  exact Finset.sum_congr rfl fun k _ => congrArg _ (funext fun a => Fin.ext (by match a with | ⟨0, _⟩ => rfl | ⟨1, _⟩ => rfl | ⟨2, _⟩ => rfl))

/-- The softmax weight of position `s` for query row `r`. -/
theorem weight_entry (b : Fin 4) (r s : Fin 2048) :
    val_main_v27 (F := Ideal) x0 x1 x3 x4 x5 x6 (ix3 b r s)
      = soft (Ideal.ofBits .f32 0xFF800000#32) (fun s => val_main_v16 (F := Ideal) x0 x1 x3 x4 x5 x6 (ix3 b r s)) s := by
  rw [val_main_v27_apply, val_main_v26_apply, val_main_v25_apply]
  have ei : idx_main_v25 (idx_main_v26 (ix3 b r s)) = ix2 b r :=
    funext fun a => Fin.ext (by match a with | ⟨0, _⟩ => rfl | ⟨1, _⟩ => rfl)
  rw [ei, sum_entry, exp_entry]
  unfold soft
  exact congrArg (Ideal.div _) (Finset.sum_congr rfl fun k _ => exp_entry x0 x1 x3 x5 x4 x6 b r k)

/-- The reference's result is the attention head of the nine argument arrays. -/
theorem result_is_attention :
    val_main_v28 (F := Ideal) x0 x1 x2 x3 x4 x5 x6 x7 x8 = attention x0 x1 x2 x3 x4 x5 x6 x7 x8 := by
  funext i
  obtain ⟨b, r, v, rfl⟩ : ∃ (b : Fin 4) (r : Fin 2048) (v : Fin 64), i = ix3 b r v := ⟨i 0, i 1, i 2, eq_ix3 i⟩
  rw [val_main_v28_apply]
  unfold attention attnRow
  refine Finset.sum_congr rfl fun k _ => ?_
  have el : lidx_main_v28 (ix3 b r v) k = ix3 b r k := funext fun a => Fin.ext (by match a with | ⟨0, _⟩ => rfl | ⟨1, _⟩ => rfl | ⟨2, _⟩ => rfl)
  have er : ridx_main_v28 (ix3 b r v) k = ix3 b k v := funext fun a => Fin.ext (by match a with | ⟨0, _⟩ => rfl | ⟨1, _⟩ => rfl | ⟨2, _⟩ => rfl)
  rw [el, er, weight_entry, value_rows]
  refine congrArg (fun f => soft (Ideal.ofBits .f32 0xFF800000#32) f k * _) (funext fun s => ?_)
  exact score_entry x0 x1 x3 x5 x4 x6 b r s

end Cert.ReferenceIdeal.RefValue

end
-- ==== Proof.lean ====
/-
  One attention head on [4, 2048, 1024] query, key and value arrays — three linear projections to 64 coordinates, the
  scaled scores of each query row against the 2048 key rows of its batch entry, a softmax along each row taken with the
  row's maximum subtracted, and the weighted sum of the projected value rows — computed by one fused kernel and by a
  jnp reference, equal as extended reals.

  The kernel walks a grid of 4 batch entries by 8 query tiles of 256 rows. At the first tile of a batch entry it projects
  the entry's 2048 key rows and 2048 value rows into two scratch arrays, which the other seven tiles only read; at every
  tile it projects the tile's 256 query rows and forms their output rows against the two scratch arrays. The reference
  projects all rows of all three arrays, forms all scores with batched contractions, and applies the softmax and the last
  contraction array-wide. Over the extended reals a change of float format is the identity and a matrix product into a
  zero accumulator is the plain sum of products, so both compute, at entry (b, r, v), the same expression
  (`Cert.Attn.attention`): the same sums of the same products in the same order of factors; no law beyond that is used,
  so the inputs' finiteness is never opened. The three points where the texts differ: the kernel multiplies by the literal
  one eighth where the reference divides one by the square root of sixty-four (equal: `Cert.Attn.scale_eq`); the
  reference takes the larger of minus infinity and the row maximum already folded from minus infinity (no change:
  `Cert.Attn.max_rowMax`); and the reference's row sum starts from a zero it adds (`zero_add`).

  The kernel's side is `Cert.KernelIdeal.Head.run` (the scratch arrays by induction along the grid, the blocks tiling
  the result array); the reference's is `Cert.ReferenceIdeal.RefValue.result_is_attention` over its run read one
  operation at a time. The three frames are the generated frame runs (the reference's its run with the result dropped);
  the idealization rewrote nothing, so `preserves` is trivial.
-/
import proofs.«105239_j4776003633411_2_alg».proof.Defs
import proofs.«105239_j4776003633411_2_alg».proof.Proof.Gen.Kernel
import proofs.«105239_j4776003633411_2_alg».proof.Proof.Gen.Kernel.Skeleton
import proofs.«105239_j4776003633411_2_alg».proof.Proof.Gen.Kernel.Launch
import proofs.«105239_j4776003633411_2_alg».proof.Proof.Gen.Kernel.Points
import proofs.«105239_j4776003633411_2_alg».proof.Proof.Gen.Kernel.Frame
import proofs.«105239_j4776003633411_2_alg».proof.Proof.Gen.KernelIdeal
import proofs.«105239_j4776003633411_2_alg».proof.Proof.Gen.KernelIdeal.Skeleton
import proofs.«105239_j4776003633411_2_alg».proof.Proof.Gen.KernelIdeal.Launch
import proofs.«105239_j4776003633411_2_alg».proof.Proof.Gen.KernelIdeal.Points
import proofs.«105239_j4776003633411_2_alg».proof.Proof.Gen.KernelIdeal.Frame
import proofs.«105239_j4776003633411_2_alg».proof.Proof.Gen.ReferenceIdeal
import proofs.«105239_j4776003633411_2_alg».proof.Proof.Gen.Pre_finite_inputs
import proofs.«105239_j4776003633411_2_alg».proof.Proof.Gen.KernelIdeal.Value
import proofs.«105239_j4776003633411_2_alg».proof.Proof.Gen.ReferenceIdeal.Run
import proofs.«105239_j4776003633411_2_alg».proof.Proof.Gen.ReferenceIdeal.Read
import proofs.«105239_j4776003633411_2_alg».proof.Proof.KernelHead
import proofs.«105239_j4776003633411_2_alg».proof.Proof.RefAttention
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array and the reference's result, from arguments that agree, are both the
    attention head of those arguments. -/
theorem algebraic : Cert.algebraic_KernelIdeal_ReferenceIdeal := by
  intro m ρ m' ρ' _ hagree
  refine ⟨fun c => Cert.KernelIdeal.Head.result m c, Cert.KernelIdeal.Head.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_is_attention,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
